-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x2048 : Shape := ⟨3, ![32, 8, 2048]⟩
abbrev S32x352 : Shape := ⟨2, ![32, 352]⟩
abbrev S32x32 : Shape := ⟨2, ![32, 32]⟩
abbrev S21128x2048 : Shape := ⟨2, ![21128, 2048]⟩
abbrev S2048x512 : Shape := ⟨2, ![2048, 512]⟩
abbrev S512 : Shape := ⟨1, ![512]⟩
abbrev S512x768 : Shape := ⟨2, ![512, 768]⟩
abbrev S768 : Shape := ⟨1, ![768]⟩
abbrev S_ : Shape := ⟨0, ![]⟩

class Facts : Prop where
  bcast_S_S32x8x2048 : S_.BroadcastsInDim S32x8x2048 (![] : Fin 0 → Fin S32x8x2048.rank)
  reducesTo_S32x8x2048_S_d0_1_2 : S32x8x2048.ReducesTo [0, 1, 2] S_
  h_S_ : 0 < S_.numel
  bcast_S_S21128x2048 : S_.BroadcastsInDim S21128x2048 (![] : Fin 0 → Fin S21128x2048.rank)
  reducesTo_S21128x2048_S_d0_1 : S21128x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg10 : FVec F S512x768 .f32) (main_arg11 : FVec F S768 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg10
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S768 .f32 := Host.absf main_arg11
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S32x8x2048 .f32) (main_arg1 : IVec S32x352 32) (main_arg2 : IVec S32x32 32) (main_arg3 : IVec S32x32 32) (main_arg4 : IVec S32x32 32) (main_arg5 : IVec S32x352 32) (main_arg6 : IVec S32x352 32) (main_arg7 : FVec F S21128x2048 .f32) (main_arg8 : FVec F S2048x512 .f32) (main_arg9 : FVec F S512 .f32) (main_arg10 : FVec F S512x768 .f32) (main_arg11 : FVec F S768 .f32) : IVec S_ 1 :=
  let main_v0 : FVec F S32x8x2048 .f32 := Host.absf main_arg0
  let main_cst : FVec F S_ .f32 := constant S_ .f32 0x7F800000#32
  let main_v1 : FVec F S32x8x2048 .f32 := broadcastInDim S32x8x2048 ![] bcast_S_S32x8x2048 main_cst
  let main_v2 : IVec S32x8x2048 1 := cmpf .olt main_v0 main_v1
  let main_c : IVec S_ 1 := constantI S_ 1 1#1
  let main_v3 : IVec S_ 1 := (fun x v => Host.reduce IntOp.andi x v reducesTo_S32x8x2048_S_d0_1_2 h_S_) main_v2 main_c
  let main_v4 : FVec F S21128x2048 .f32 := Host.absf main_arg7
  let main_cst_0 : FVec F S_ .f32 := constant S_ .f32 0x7F800000#32
  let main_v5 : FVec F S21128x2048 .f32 := broadcastInDim S21128x2048 ![] bcast_S_S21128x2048 main_cst_0
  let main_v6 : IVec S21128x2048 1 := cmpf .olt main_v4 main_v5
  let main_c_1 : IVec S_ 1 := constantI S_ 1 1#1
  let main_v7 : IVec S_ 1 := (fun x v => Host.reduce IntOp.andi x v reducesTo_S21128x2048_S_d0_1 h_S_) main_v6 main_c_1
  let main_v8 : IVec S_ 1 := andi main_v3 main_v7
  let main_v9 : FVec F S2048x512 .f32 := Host.absf main_arg8
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg9
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg10 main_arg11 main_v13 main_v16
-- ==== Kernel.lean ====
abbrev S32x8x2048 : Shape := ⟨3, ![32, 8, 2048]⟩
abbrev S32x352 : Shape := ⟨2, ![32, 352]⟩
abbrev S32x32 : Shape := ⟨2, ![32, 32]⟩
abbrev S21128x2048 : Shape := ⟨2, ![21128, 2048]⟩
abbrev S2048x512 : Shape := ⟨2, ![2048, 512]⟩
abbrev S512 : Shape := ⟨1, ![512]⟩
abbrev S512x768 : Shape := ⟨2, ![512, 768]⟩
abbrev S768 : Shape := ⟨1, ![768]⟩
abbrev S32x384 : Shape := ⟨2, ![32, 384]⟩
abbrev S_ : Shape := ⟨0, ![]⟩
abbrev S32x384x1 : Shape := ⟨3, ![32, 384, 1]⟩
abbrev S32x384x2048 : Shape := ⟨3, ![32, 384, 2048]⟩
abbrev S32x32x2048 : Shape := ⟨3, ![32, 32, 2048]⟩
abbrev S32x352x2048 : Shape := ⟨3, ![32, 352, 2048]⟩
abbrev S32x8x44x2048 : Shape := ⟨4, ![32, 8, 44, 2048]⟩
abbrev S32x8x1x2048 : Shape := ⟨4, ![32, 8, 1, 2048]⟩
abbrev S12288x2048 : Shape := ⟨2, ![12288, 2048]⟩
abbrev S1x512 : Shape := ⟨2, ![1, 512]⟩
abbrev S1x768 : Shape := ⟨2, ![1, 768]⟩
abbrev S12288x768 : Shape := ⟨2, ![12288, 768]⟩
abbrev S32x384x768 : Shape := ⟨3, ![32, 384, 768]⟩
abbrev S1024x2048 : Shape := ⟨2, ![1024, 2048]⟩
abbrev S1024x768 : Shape := ⟨2, ![1024, 768]⟩
abbrev S1024x512 : Shape := ⟨2, ![1024, 512]⟩

abbrev nBuf : Space → Nat
  | .hbm => 40
  | .vmem => 8
  | .smem => 0
  | _ => 0

abbrev bufTy : (tb : Table) → Fin (tcTables nBuf tb) → BufTy
  | .hbm, ⟨0, _⟩ => ⟨S32x8x2048, .f32⟩
  | .hbm, ⟨1, _⟩ => ⟨S32x352, .i32⟩
  | .hbm, ⟨2, _⟩ => ⟨S32x32, .i32⟩
  | .hbm, ⟨3, _⟩ => ⟨S32x32, .i32⟩
  | .hbm, ⟨4, _⟩ => ⟨S32x32, .i32⟩
  | .hbm, ⟨5, _⟩ => ⟨S32x352, .i32⟩
  | .hbm, ⟨6, _⟩ => ⟨S32x352, .i32⟩
  | .hbm, ⟨7, _⟩ => ⟨S21128x2048, .f32⟩
  | .hbm, ⟨8, _⟩ => ⟨S2048x512, .f32⟩
  | .hbm, ⟨9, _⟩ => ⟨S512, .f32⟩
  | .hbm, ⟨10, _⟩ => ⟨S512x768, .f32⟩
  | .hbm, ⟨11, _⟩ => ⟨S768, .f32⟩
  | .hbm, ⟨12, _⟩ => ⟨S32x384, .i32⟩
  | .hbm, ⟨13, _⟩ => ⟨S_, .i32⟩
  | .hbm, ⟨14, _⟩ => ⟨S32x384, .i32⟩
  | .hbm, ⟨15, _⟩ => ⟨S32x384, .i1⟩
  | .hbm, ⟨16, _⟩ => ⟨S_, .i32⟩
  | .hbm, ⟨17, _⟩ => ⟨S32x384, .i32⟩
  | .hbm, ⟨18, _⟩ => ⟨S32x384, .i32⟩
  | .hbm, ⟨19, _⟩ => ⟨S32x384, .i32⟩
  | .hbm, ⟨20, _⟩ => ⟨S32x384x1, .i32⟩
  | .hbm, ⟨21, _⟩ => ⟨S32x384x2048, .f32⟩
  | .hbm, ⟨22, _⟩ => ⟨S32x32x2048, .f32⟩
  | .hbm, ⟨23, _⟩ => ⟨S32x352x2048, .f32⟩
  | .hbm, ⟨24, _⟩ => ⟨S32x8x44x2048, .f32⟩
  | .hbm, ⟨25, _⟩ => ⟨S32x8x1x2048, .f32⟩
  | .hbm, ⟨26, _⟩ => ⟨S32x8x44x2048, .f32⟩
  | .hbm, ⟨27, _⟩ => ⟨S32x8x44x2048, .f32⟩
  | .hbm, ⟨28, _⟩ => ⟨S32x352x2048, .f32⟩
  | .hbm, ⟨29, _⟩ => ⟨S32x384x2048, .f32⟩
  | .hbm, ⟨30, _⟩ => ⟨S12288x2048, .f32⟩
  | .hbm, ⟨31, _⟩ => ⟨S12288x2048, .bf16⟩
  | .hbm, ⟨32, _⟩ => ⟨S2048x512, .bf16⟩
  | .hbm, ⟨33, _⟩ => ⟨S512x768, .bf16⟩
  | .hbm, ⟨34, _⟩ => ⟨S1x512, .f32⟩
  | .hbm, ⟨35, _⟩ => ⟨S1x768, .f32⟩
  | .hbm, ⟨36, _⟩ => ⟨S12288x768, .f32⟩
  | .hbm, ⟨37, _⟩ => ⟨S32x384x768, .f32⟩
  | .hbm, ⟨38, _⟩ => ⟨S32x384, .i32⟩
  | .hbm, ⟨39, _⟩ => ⟨S32x384, .i32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1x512, .f32⟩
  | .local _ .vmem, ⟨4, _⟩ => ⟨S512x768, .bf16⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_1 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_c_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_v0_0 : Ref sig .tc := ⟨.hbm, 37, rfl⟩
abbrev main_v0_2 : Ref sig .tc := ⟨.hbm, 38, rfl⟩
abbrev main_v0_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S32x32_S32x352_S32x384_d1 : Shape.Concatenates [S32x32, S32x352] S32x384 1
  bcast_S_S32x384 : S_.BroadcastsInDim S32x384 (![] : Fin 0 → Fin S32x384.rank)
  bcast_S32x384_S32x384x1_0_1 : S32x384.BroadcastsInDim S32x384x1 (![0, 1] : Fin 2 → Fin S32x384x1.rank)
  slices_S32x384x2048_S32x32x2048_0_0_0 : S32x384x2048.Slices ![0, 0, 0] S32x32x2048
  slices_S32x384x2048_S32x352x2048_0_32_0 : S32x384x2048.Slices ![0, 32, 0] S32x352x2048
  shapeCasts_S32x352x2048_S32x8x44x2048 : S32x352x2048.ShapeCasts S32x8x44x2048
  bcast_S32x8x2048_S32x8x1x2048_0_1_3 : S32x8x2048.BroadcastsInDim S32x8x1x2048 (![0, 1, 3] : Fin 3 → Fin S32x8x1x2048.rank)
  bcast_S32x8x1x2048_S32x8x44x2048_0_1_2_3 : S32x8x1x2048.BroadcastsInDim S32x8x44x2048 (![0, 1, 2, 3] : Fin 4 → Fin S32x8x44x2048.rank)
  shapeCasts_S32x8x44x2048_S32x352x2048 : S32x8x44x2048.ShapeCasts S32x352x2048
  concatenates_S32x32x2048_S32x352x2048_S32x384x2048_d1 : Shape.Concatenates [S32x32x2048, S32x352x2048] S32x384x2048 1
  shapeCasts_S32x384x2048_S12288x2048 : S32x384x2048.ShapeCasts S12288x2048
  bitsLt_bf16_f32 : FTy.bits .bf16 < FTy.bits .f32
  shapeCasts_S512_S1x512 : S512.ShapeCasts S1x512
  shapeCasts_S768_S1x768 : S768.ShapeCasts S1x768
  shapeCasts_S12288x768_S32x384x768 : S12288x768.ShapeCasts S32x384x768
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  gather_S21128x2048_S32x384x1_S32x384x2048_2_0_n_n_0_2_12048_wf : GatherDims.WF S21128x2048 S32x384x1 S32x384x2048 [2] [0] [] [0] [] 2 ![1, 2048]
  dot_S1024x2048_S2048x512_S1024x512_1_0_0_1_n_n_wf : DotDims.WF S1024x2048 S2048x512 S1024x512 [1] [0] [0] [1] [] []
  dot_S1024x512_S512x768_S1024x768_1_0_0_1_n_n_wf : DotDims.WF S1024x512 S512x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x2048.size a
  hwx0_0 : ∀ i : grid0.Coords, EltTy.bits .bf16 = 32 ∨ (Rect.block (s := S12288x2048) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S512x768.size a
  hwx0_3 : ∀ i : grid0.Coords, EltTy.bits .bf16 = 32 ∨ (Rect.block (s := S512x768) S512x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S12288x768.size a
  hwx0_5 : ∀ i : grid0.Coords, EltTy.bits .f32 = 32 ∨ (Rect.block (s := S12288x768) S1024x768.size (cc0_transform_5 i) (hinb0_5 i)).WholeWords (EltTy.packing .f32)

variable [Facts₀]

def gather_S21128x2048_S32x384x1_S32x384x2048_2_0_n_n_0_2_12048 : GatherDims S21128x2048 S32x384x1 S32x384x2048 where
  offsetDims := [2]
  collapsedSliceDims := [0]
  operandBatchingDims := []
  startIndicesBatchingDims := []
  startIndexMap := [0]
  indexVectorDim := 2
  sliceSizes := ![1, 2048]
  wf := gather_S21128x2048_S32x384x1_S32x384x2048_2_0_n_n_0_2_12048_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x768_S1024x768_1_0_0_1_n_n : DotDims S1024x512 S512x768 S1024x768 where
  lhsContracting := [1]
  rhsContracting := [0]
  lhsNonContracting := [0]
  rhsNonContracting := [1]
  lhsBatch := []
  rhsBatch := []
  wf := dot_S1024x512_S512x768_S1024x768_1_0_0_1_n_n_wf

abbrev win0_0 : Pipeline.Window sig grid0 :=
  Pipeline.Window.ofSpec (Memref.whole main_call0_v17) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v19) S512x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v21) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v22) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x8x2048 : Shape := ⟨3, ![32, 8, 2048]⟩
abbrev S32x352 : Shape := ⟨2, ![32, 352]⟩
abbrev S32x32 : Shape := ⟨2, ![32, 32]⟩
abbrev S21128x2048 : Shape := ⟨2, ![21128, 2048]⟩
abbrev S2048x512 : Shape := ⟨2, ![2048, 512]⟩
abbrev S512 : Shape := ⟨1, ![512]⟩
abbrev S512x768 : Shape := ⟨2, ![512, 768]⟩
abbrev S768 : Shape := ⟨1, ![768]⟩
abbrev S_ : Shape := ⟨0, ![]⟩
abbrev S32x32x1 : Shape := ⟨3, ![32, 32, 1]⟩
abbrev S32x32x2048 : Shape := ⟨3, ![32, 32, 2048]⟩
abbrev S32x352x1 : Shape := ⟨3, ![32, 352, 1]⟩
abbrev S32x352x2048 : Shape := ⟨3, ![32, 352, 2048]⟩
abbrev S32x8x44x2048 : Shape := ⟨4, ![32, 8, 44, 2048]⟩
abbrev S32x8x1x2048 : Shape := ⟨4, ![32, 8, 1, 2048]⟩
abbrev S32x384x2048 : Shape := ⟨3, ![32, 384, 2048]⟩
abbrev S32x384x512 : Shape := ⟨3, ![32, 384, 512]⟩
abbrev S1x1x512 : Shape := ⟨3, ![1, 1, 512]⟩
abbrev S32x384x768 : Shape := ⟨3, ![32, 384, 768]⟩
abbrev S1x1x768 : Shape := ⟨3, ![1, 1, 768]⟩
abbrev S32x384 : Shape := ⟨2, ![32, 384]⟩

abbrev nBuf : Space → Nat
  | .hbm => 48
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x352, .i32⟩
  | .hbm, ⟨2, _⟩ => ⟨S32x32, .i32⟩
  | .hbm, ⟨3, _⟩ => ⟨S32x32, .i32⟩
  | .hbm, ⟨4, _⟩ => ⟨S32x32, .i32⟩
  | .hbm, ⟨5, _⟩ => ⟨S32x352, .i32⟩
  | .hbm, ⟨6, _⟩ => ⟨S32x352, .i32⟩
  | .hbm, ⟨7, _⟩ => ⟨S21128x2048, .f32⟩
  | .hbm, ⟨8, _⟩ => ⟨S2048x512, .f32⟩
  | .hbm, ⟨9, _⟩ => ⟨S512, .f32⟩
  | .hbm, ⟨10, _⟩ => ⟨S512x768, .f32⟩
  | .hbm, ⟨11, _⟩ => ⟨S768, .f32⟩
  | .hbm, ⟨12, _⟩ => ⟨S_, .i32⟩
  | .hbm, ⟨13, _⟩ => ⟨S32x32, .i32⟩
  | .hbm, ⟨14, _⟩ => ⟨S32x32, .i1⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S32x32x1, .i32⟩
  | .hbm, ⟨20, _⟩ => ⟨S32x32x2048, .f32⟩
  | .hbm, ⟨21, _⟩ => ⟨S_, .i32⟩
  | .hbm, ⟨22, _⟩ => ⟨S32x352, .i32⟩
  | .hbm, ⟨23, _⟩ => ⟨S32x352, .i1⟩
  | .hbm, ⟨24, _⟩ => ⟨S_, .i32⟩
  | .hbm, ⟨25, _⟩ => ⟨S32x352, .i32⟩
  | .hbm, ⟨26, _⟩ => ⟨S32x352, .i32⟩
  | .hbm, ⟨27, _⟩ => ⟨S32x352, .i32⟩
  | .hbm, ⟨28, _⟩ => ⟨S32x352x1, .i32⟩
  | .hbm, ⟨29, _⟩ => ⟨S32x352x2048, .f32⟩
  | .hbm, ⟨30, _⟩ => ⟨S32x8x44x2048, .f32⟩
  | .hbm, ⟨31, _⟩ => ⟨S32x8x1x2048, .f32⟩
  | .hbm, ⟨32, _⟩ => ⟨S32x8x44x2048, .f32⟩
  | .hbm, ⟨33, _⟩ => ⟨S32x8x44x2048, .f32⟩
  | .hbm, ⟨34, _⟩ => ⟨S32x352x2048, .f32⟩
  | .hbm, ⟨35, _⟩ => ⟨S32x384x2048, .f32⟩
  | .hbm, ⟨36, _⟩ => ⟨S32x384x512, .f32⟩
  | .hbm, ⟨37, _⟩ => ⟨S1x1x512, .f32⟩
  | .hbm, ⟨38, _⟩ => ⟨S32x384x512, .f32⟩
  | .hbm, ⟨39, _⟩ => ⟨S32x384x512, .f32⟩
  | .hbm, ⟨40, _⟩ => ⟨S32x384x512, .f32⟩
  | .hbm, ⟨41, _⟩ => ⟨S32x384x768, .f32⟩
  | .hbm, ⟨42, _⟩ => ⟨S1x1x768, .f32⟩
  | .hbm, ⟨43, _⟩ => ⟨S32x384x768, .f32⟩
  | .hbm, ⟨44, _⟩ => ⟨S32x384x768, .f32⟩
  | .hbm, ⟨45, _⟩ => ⟨S32x384, .i32⟩
  | .hbm, ⟨46, _⟩ => ⟨S32x384, .i32⟩
  | .hbm, ⟨47, _⟩ => ⟨S32x384, .i32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S_S32x352 : S_.BroadcastsInDim S32x352 (![] : Fin 0 → Fin S32x352.rank)
  bcast_S32x352_S32x352x1_0_1 : S32x352.BroadcastsInDim S32x352x1 (![0, 1] : Fin 2 → Fin S32x352x1.rank)
  shapeCasts_S32x352x2048_S32x8x44x2048 : S32x352x2048.ShapeCasts S32x8x44x2048
  bcast_S32x8x2048_S32x8x1x2048_0_1_3 : S32x8x2048.BroadcastsInDim S32x8x1x2048 (![0, 1, 3] : Fin 3 → Fin S32x8x1x2048.rank)
  bcast_S32x8x1x2048_S32x8x44x2048_0_1_2_3 : S32x8x1x2048.BroadcastsInDim S32x8x44x2048 (![0, 1, 2, 3] : Fin 4 → Fin S32x8x44x2048.rank)
  shapeCasts_S32x8x44x2048_S32x352x2048 : S32x8x44x2048.ShapeCasts S32x352x2048
  concatenates_S32x32x2048_S32x352x2048_S32x384x2048_d1 : Shape.Concatenates [S32x32x2048, S32x352x2048] S32x384x2048 1
  bcast_S512_S1x1x512_2 : S512.BroadcastsInDim S1x1x512 (![2] : Fin 1 → Fin S1x1x512.rank)
  bcast_S1x1x512_S32x384x512_0_1_2 : S1x1x512.BroadcastsInDim S32x384x512 (![0, 1, 2] : Fin 3 → Fin S32x384x512.rank)
  bcast_S768_S1x1x768_2 : S768.BroadcastsInDim S1x1x768 (![2] : Fin 1 → Fin S1x1x768.rank)
  bcast_S1x1x768_S32x384x768_0_1_2 : S1x1x768.BroadcastsInDim S32x384x768 (![0, 1, 2] : Fin 3 → Fin S32x384x768.rank)
  concatenates_S32x32_S32x352_S32x384_d1 : Shape.Concatenates [S32x32, S32x352] S32x384 1
  gather_S21128x2048_S32x32x1_S32x32x2048_2_0_n_n_0_2_12048_wf : GatherDims.WF S21128x2048 S32x32x1 S32x32x2048 [2] [0] [] [0] [] 2 ![1, 2048]
  gather_S21128x2048_S32x352x1_S32x352x2048_2_0_n_n_0_2_12048_wf : GatherDims.WF S21128x2048 S32x352x1 S32x352x2048 [2] [0] [] [0] [] 2 ![1, 2048]
  dot_S32x384x2048_S2048x512_S32x384x512_2_0_01_1_n_n_wf : DotDims.WF S32x384x2048 S2048x512 S32x384x512 [2] [0] [0, 1] [1] [] []
  dot_S32x384x512_S512x768_S32x384x768_2_0_01_1_n_n_wf : DotDims.WF S32x384x512 S512x768 S32x384x768 [2] [0] [0, 1] [1] [] []

variable [Facts₀]

def gather_S21128x2048_S32x32x1_S32x32x2048_2_0_n_n_0_2_12048 : GatherDims S21128x2048 S32x32x1 S32x32x2048 where
  offsetDims := [2]
  collapsedSliceDims := [0]
  operandBatchingDims := []
  startIndicesBatchingDims := []
  startIndexMap := [0]
  indexVectorDim := 2
  sliceSizes := ![1, 2048]
  wf := gather_S21128x2048_S32x32x1_S32x32x2048_2_0_n_n_0_2_12048_wf
def gather_S21128x2048_S32x352x1_S32x352x2048_2_0_n_n_0_2_12048 : GatherDims S21128x2048 S32x352x1 S32x352x2048 where
  offsetDims := [2]
  collapsedSliceDims := [0]
  operandBatchingDims := []
  startIndicesBatchingDims := []
  startIndexMap := [0]
  indexVectorDim := 2
  sliceSizes := ![1, 2048]
  wf := gather_S21128x2048_S32x352x1_S32x352x2048_2_0_n_n_0_2_12048_wf
def dot_S32x384x2048_S2048x512_S32x384x512_2_0_01_1_n_n : DotDims S32x384x2048 S2048x512 S32x384x512 where
  lhsContracting := [2]
  rhsContracting := [0]
  lhsNonContracting := [0, 1]
  rhsNonContracting := [1]
  lhsBatch := []
  rhsBatch := []
  wf := dot_S32x384x2048_S2048x512_S32x384x512_2_0_01_1_n_n_wf
def dot_S32x384x512_S512x768_S32x384x768_2_0_01_1_n_n : DotDims S32x384x512 S512x768 S32x384x768 where
  lhsContracting := [2]
  rhsContracting := [0]
  lhsNonContracting := [0, 1]
  rhsNonContracting := [1]
  lhsBatch := []
  rhsBatch := []
  wf := dot_S32x384x512_S512x768_S32x384x768_2_0_01_1_n_n_wf

class Facts : Prop extends Facts₀ where

variable [Facts]
-- ==== Proof.LibTokenGather.lean ====
/-
  Gathering rows of a table by a matrix of start indices (an embedding lookup). For a table `x : [N, C]` and
  start indices `idx : [A, B, 1]`, the gather with the table's row axis collapsed, the start index addressing
  that axis, the index vector along the last axis of the start indices and one offset axis of full width `C`
  returns, at result entry `(a, b, k)`, the table's entry `(ρ, k)`: the row `ρ` is the start index
  `idx[a, b, 0]` read as a signed integer, negative values sent to `0`, clamped to the last row `N − 1`. The
  column coordinate passes through unchanged: the offset axis starts at `0` and the slice is a whole row.

  An indexing expression `table[ids]` first sends a negative id `w` to `w + N` (`wrap`): a comparison with a
  broadcast `0`, a sum with a broadcast `N` and a select, the result given a trailing unit axis. `lookup_apply`
  reads the whole expression at `(a, b, k)`: the table at row `rowOf (wrap N ids[a, b])`, column `k`.
-/
import Idealize.ShloMosaic.Lib.ValueIdx
import Idealize.ShloMosaic.Lib.Pipeline.Value

noncomputable section

namespace Cert.Lib.TokenGather

open Idealize.ShloMosaic Idealize.ShloMosaic.ValueIdx

variable {α : Type}

/-- The dimension numbers of a lookup of rows by a matrix of start indices: result axis 2 is the offset axis,
    table axis 0 is collapsed and is the axis the start index addresses, the index vector lies along axis 2 of
    the start indices, and a slice is one row of `C` entries. -/
abbrev tokDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- The lookup read at `(a, b, k)`: the table at the selected row and the same column. -/
theorem gather_tokens_apply {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (k : Fin C) :
    Host.gather (tokDims N A B C wf) x idx (ix3 a b k) = x (ix2 (rowOf N hN (idx (ix3 a b 0))) k) := by
  -- the two coordinates of the table index the gather reads, one axis at a time
  have hb : ∀ e, (tokDims N A B C wf).batchCoord (ix3 a b k) e = 0 := fun e =>
    GatherDims.batchCoord_eq_zero _ _ _ List.not_mem_nil
  have h0 : (tokDims N A B C wf).start (ix3 a b k) idx (0 : Fin 2) + (tokDims N A B C wf).batchCoord (ix3 a b k) (0 : Fin 2)
      + (tokDims N A B C wf).offCoord (ix3 a b k) (0 : Fin 2) = (rowOf N hN (idx (ix3 a b 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (tokDims N A B C wf).startIndexMap from List.mem_singleton.mpr rfl)]
    have hsi : (tokDims N A B C wf).siIdx (ix3 a b k) ⟨List.idxOf (0 : Fin 2) (tokDims N A B C wf).startIndexMap,
        List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl
  have h1 : (tokDims N A B C wf).start (ix3 a b k) idx (1 : Fin 2) + (tokDims N A B C wf).batchCoord (ix3 a b k) (1 : Fin 2)
      + (tokDims N A B C wf).offCoord (ix3 a b k) (1 : Fin 2) = k.val := by
    have ne10 : ¬((1 : Fin 2) = 0) := by decide
    have hn : (1 : Fin 2) ∉ (tokDims N A B C wf).startIndexMap := fun h =>
      ne10 (List.mem_singleton.mp h)
    have hk : (1 : Fin 2) ∈ (tokDims N A B C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext e
  refine Fin.ext ?_
  match e with
  | ⟨0, _⟩ => exact h0
  | ⟨1, _⟩ => exact h1

/-- An id read the way an indexing expression reads it, for an axis of `n` entries: a negative word has `n` added. -/
def wrap (n w : BitVec 32) : BitVec 32 := Scalar.select (IntOp.cmpi .slt w 0#32) (IntOp.addi w n) w

/-- The start indices an indexing expression hands to the gather, at `(a, b, u)`: the wrapped id `ids[a, b]`. -/
theorem wrapped_word {A B : Nat} (n : BitVec 32) (ids : IVec ⟨2, ![A, B]⟩ 32)
    (h0 : (⟨0, ![]⟩ : Shape).BroadcastsInDim ⟨2, ![A, B]⟩ ![])
    (h1 : (⟨2, ![A, B]⟩ : Shape).BroadcastsInDim ⟨3, ![A, B, 1]⟩ ![0, 1]) (a : Fin A) (b : Fin B) (u : Fin 1) :
    broadcastInDim ⟨3, ![A, B, 1]⟩ ![0, 1] h1
        (select (cmpi .slt ids (broadcastInDim ⟨2, ![A, B]⟩ ![] h0 (constantI ⟨0, ![]⟩ 32 0#32)))
          (addi ids (broadcastInDim ⟨2, ![A, B]⟩ ![] h0 (constantI ⟨0, ![]⟩ 32 n))) ids) (ix3 a b u)
      = wrap n (ids (ix2 a b)) := by
  rw [broadcastInDim_apply _ h1 _ (ix3 a b u) (ix2 a b) (fun e => by
    match e with
    | ⟨0, _⟩ =>
      show a.val = if A = 1 then 0 else a.val
      split
      · have := a.isLt; omega
      · rfl
    | ⟨1, _⟩ =>
      show b.val = if B = 1 then 0 else b.val
      split
      · have := b.isLt; omega
      · rfl)]
  show Scalar.select (IntOp.cmpi .slt (ids (ix2 a b)) (broadcastInDim ⟨2, ![A, B]⟩ ![] h0 (constantI ⟨0, ![]⟩ 32 0#32) (ix2 a b)))
      (IntOp.addi (ids (ix2 a b)) (broadcastInDim ⟨2, ![A, B]⟩ ![] h0 (constantI ⟨0, ![]⟩ 32 n) (ix2 a b))) (ids (ix2 a b)) = _
  rw [broadcastInDim_apply _ h0 (constantI ⟨0, ![]⟩ 32 0#32) (ix2 a b) ix0 (fun e => e.elim0),
    broadcastInDim_apply _ h0 (constantI ⟨0, ![]⟩ 32 n) (ix2 a b) ix0 (fun e => e.elim0)]
  rfl

/-- THE INDEXING EXPRESSION `table[ids]` at `(a, b, k)`: the table at the row the wrapped id selects, column `k`. -/
theorem lookup_apply {N A B C : Nat} (hN : 0 < N) (n : BitVec 32)
    (wf : GatherDims.WF ⟨2, ![N, C]⟩ ⟨3, ![A, B, 1]⟩ ⟨3, ![A, B, C]⟩ [2] [0] [] [0] [] 2 ![1, C])
    (x : (⟨2, ![N, C]⟩ : Shape).Idx → α) (ids : IVec ⟨2, ![A, B]⟩ 32)
    (h0 : (⟨0, ![]⟩ : Shape).BroadcastsInDim ⟨2, ![A, B]⟩ ![])
    (h1 : (⟨2, ![A, B]⟩ : Shape).BroadcastsInDim ⟨3, ![A, B, 1]⟩ ![0, 1]) (a : Fin A) (b : Fin B) (k : Fin C) :
    Host.gather (tokDims N A B C wf) x
        (broadcastInDim ⟨3, ![A, B, 1]⟩ ![0, 1] h1
          (select (cmpi .slt ids (broadcastInDim ⟨2, ![A, B]⟩ ![] h0 (constantI ⟨0, ![]⟩ 32 0#32)))
            (addi ids (broadcastInDim ⟨2, ![A, B]⟩ ![] h0 (constantI ⟨0, ![]⟩ 32 n))) ids)) (ix3 a b k)
      = x (ix2 (rowOf N hN (wrap n (ids (ix2 a b)))) k) := by
  rw [gather_tokens_apply hN, wrapped_word]

end Cert.Lib.TokenGather

end
-- ==== Proof.Embed.lean ====
/-
  The embedded tokens: one lookup of the joined ids against two lookups joined afterwards.

  The kernel's program joins the ids first (`topic` then `input`, along the token axis), looks the `384` ids of a
  batch row up in the table at once, cuts the result into its first `32` and last `352` tokens, adds the sentence
  vectors to the last `352` and joins the two pieces again. The reference looks `topic` and `input` up separately.
  A lookup reads, at token `t`, the table row the id at `t` selects, so the cut pieces of the joint lookup are the
  two separate lookups, and the two joined arrays are equal.
-/
import proofs.«142035_j17394617549221_2_alg».proof.Proof.Gen.KernelIdeal
import proofs.«142035_j17394617549221_2_alg».proof.Proof.Gen.ReferenceIdeal.Read
import proofs.«142035_j17394617549221_2_alg».proof.Proof.LibTokenGather
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.ValueIdx Cert.Lib.TokenGather

/-- The ids of a batch row: the `32` topic ids, then the `352` input ids. -/
def labels (topic : IVec S32x32 32) (inp : IVec S32x352 32) : IVec S32x384 32 :=
  concatenate S32x384 1 [⟨S32x32, topic⟩, ⟨S32x352, inp⟩] concatenates_S32x32_S32x352_S32x384_d1

/-- The indexing expression `table[ids]` for `32×384` ids. -/
def looked (table : FVec Ideal S21128x2048 .f32) (ids : IVec S32x384 32) : FVec Ideal S32x384x2048 .f32 :=
  Host.gather gather_S21128x2048_S32x384x1_S32x384x2048_2_0_n_n_0_2_12048 table
    (broadcastInDim S32x384x1 ![0, 1] bcast_S32x384_S32x384x1_0_1
      (select (cmpi .slt ids (broadcastInDim S32x384 ![] bcast_S_S32x384 (constantI S_ 32 0#32)))
        (addi ids (broadcastInDim S32x384 ![] bcast_S_S32x384 (constantI S_ 32 21128#32))) ids))

/-- The sentence vectors added to the input tokens: token `44·s + u` of a batch row receives sentence `s`. -/
def addSentence (e : FVec Ideal S32x352x2048 .f32) (co : FVec Ideal S32x8x2048 .f32) : FVec Ideal S32x352x2048 .f32 :=
  shapeCast S32x352x2048 (addf (shapeCast S32x8x44x2048 e shapeCasts_S32x352x2048_S32x8x44x2048)
    (broadcastInDim S32x8x44x2048 ![0, 1, 2, 3] bcast_S32x8x1x2048_S32x8x44x2048_0_1_2_3
      (broadcastInDim S32x8x1x2048 ![0, 1, 3] bcast_S32x8x2048_S32x8x1x2048_0_1_3 co))) shapeCasts_S32x8x44x2048_S32x352x2048

/-- The activations the kernel's program builds: the joint lookup cut in two, the sentence vectors added to the
    second piece, the pieces joined again. -/
def embedded (co : FVec Ideal S32x8x2048 .f32) (inp : IVec S32x352 32) (topic : IVec S32x32 32)
    (table : FVec Ideal S21128x2048 .f32) : FVec Ideal S32x384x2048 .f32 :=
  concatenate S32x384x2048 1
    [⟨S32x32x2048, extractStridedSlice S32x32x2048 ![0, 0, 0] (looked table (labels topic inp)) slices_S32x384x2048_S32x32x2048_0_0_0⟩,
     ⟨S32x352x2048, addSentence (extractStridedSlice S32x352x2048 ![0, 32, 0] (looked table (labels topic inp))
        slices_S32x384x2048_S32x352x2048_0_32_0) co⟩]
    concatenates_S32x32x2048_S32x352x2048_S32x384x2048_d1

/-- The joint lookup at `(b, t, d)`: the table row the wrapped id `ids[b, t]` selects. -/
theorem looked_apply (table : FVec Ideal S21128x2048 .f32) (ids : IVec S32x384 32) (b : Fin 32) (t : Fin 384) (d : Fin 2048) :
    looked table ids (ix3 b t d) = table (ix2 (rowOf 21128 (by decide) (wrap 21128#32 (ids (ix2 b t)))) d) :=
  lookup_apply (N := 21128) (A := 32) (B := 384) (C := 2048) (by decide) 21128#32
    (gather_S21128x2048_S32x384x1_S32x384x2048_2_0_n_n_0_2_12048).wf table ids bcast_S_S32x384 bcast_S32x384_S32x384x1_0_1 b t d

/-- The joined ids at a topic position … -/
theorem labels_topic (topic : IVec S32x32 32) (inp : IVec S32x352 32) (b : Fin 32) (t : Fin 32) (t' : Fin 384)
    (ht : t'.val = t.val) : labels topic inp (ix2 b t') = topic (ix2 b t) := by
  unfold labels
  exact concatenate_pair_apply_left (t := S32x384) (1 : Fin 2) topic inp concatenates_S32x32_S32x352_S32x384_d1 (ix2 b t') rfl (ix2 b t)
    (fun a => by match a with | ⟨0, _⟩ => rfl | ⟨1, _⟩ => exact ht.symm)
/-- … and at an input position. -/
theorem labels_inp (topic : IVec S32x32 32) (inp : IVec S32x352 32) (b : Fin 32) (t : Fin 352) (t' : Fin 384)
    (ht : t'.val = 32 + t.val) : labels topic inp (ix2 b t') = inp (ix2 b t) := by
  unfold labels
  exact concatenate_pair_apply_right (t := S32x384) (1 : Fin 2) topic inp concatenates_S32x32_S32x352_S32x384_d1 (ix2 b t') rfl rfl (ix2 b t)
    (fun a ha => by match a with | ⟨0, _⟩ => rfl | ⟨1, _⟩ => exact absurd rfl ha)
    (by show t.val + 32 = t'.val; omega)

open Cert.ReferenceIdeal.Read in
/-- The reference's lookup of the topic ids at `(b, t, d)`. -/
theorem ref_topic_apply (topic : IVec S32x32 32) (table : FVec Ideal S21128x2048 .f32) (b : Fin 32) (t : Fin 32) (d : Fin 2048) :
    val_main_v6 (F := Ideal) topic table (ix3 b t d) = table (ix2 (rowOf 21128 (by decide) (wrap 21128#32 (topic (ix2 b t)))) d) :=
  lookup_apply (N := 21128) (A := 32) (B := 32) (C := 2048) (by decide) 21128#32
    (Cert.ReferenceIdeal.gather_S21128x2048_S32x32x1_S32x32x2048_2_0_n_n_0_2_12048).wf table topic
    Cert.ReferenceIdeal.Gen.bcast_S_S32x32 Cert.ReferenceIdeal.Gen.bcast_S32x32_S32x32x1_0_1 b t d

open Cert.ReferenceIdeal.Read in
/-- The reference's lookup of the input ids at `(b, t, d)`. -/
theorem ref_inp_apply (inp : IVec S32x352 32) (table : FVec Ideal S21128x2048 .f32) (b : Fin 32) (t : Fin 352) (d : Fin 2048) :
    val_main_v13 (F := Ideal) inp table (ix3 b t d) = table (ix2 (rowOf 21128 (by decide) (wrap 21128#32 (inp (ix2 b t)))) d) :=
  lookup_apply (N := 21128) (A := 32) (B := 352) (C := 2048) (by decide) 21128#32
    (Cert.ReferenceIdeal.gather_S21128x2048_S32x352x1_S32x352x2048_2_0_n_n_0_2_12048).wf table inp
    Cert.ReferenceIdeal.Gen.bcast_S_S32x352 Cert.ReferenceIdeal.Gen.bcast_S32x352_S32x352x1_0_1 b t d

open Cert.ReferenceIdeal.Read in
/-- The first `32` tokens of the joint lookup are the lookup of the topic ids. -/
theorem cut_topic (topic : IVec S32x32 32) (inp : IVec S32x352 32) (table : FVec Ideal S21128x2048 .f32) :
    extractStridedSlice S32x32x2048 ![0, 0, 0] (looked table (labels topic inp)) slices_S32x384x2048_S32x32x2048_0_0_0
      = val_main_v6 (F := Ideal) topic table := by
  funext i
  obtain ⟨b, t, d, rfl⟩ : ∃ (b : Fin 32) (t : Fin 32) (d : Fin 2048), i = ix3 b t d := ⟨i 0, i 1, i 2, eq_ix3 i⟩
  rw [slice3_axis1_apply 0 _ slices_S32x384x2048_S32x32x2048_0_0_0 b t d ⟨t.val, by omega⟩ (by simp),
    looked_apply, labels_topic topic inp b t _ rfl, ref_topic_apply]

open Cert.ReferenceIdeal.Read in
/-- The last `352` tokens of the joint lookup are the lookup of the input ids. -/
theorem cut_inp (topic : IVec S32x32 32) (inp : IVec S32x352 32) (table : FVec Ideal S21128x2048 .f32) :
    extractStridedSlice S32x352x2048 ![0, 32, 0] (looked table (labels topic inp)) slices_S32x384x2048_S32x352x2048_0_32_0
      = val_main_v13 (F := Ideal) inp table := by
  funext i
  obtain ⟨b, t, d, rfl⟩ : ∃ (b : Fin 32) (t : Fin 352) (d : Fin 2048), i = ix3 b t d := ⟨i 0, i 1, i 2, eq_ix3 i⟩
  rw [slice3_axis1_apply 32 _ slices_S32x384x2048_S32x352x2048_0_32_0 b t d ⟨32 + t.val, by omega⟩ rfl,
    looked_apply, labels_inp topic inp b t _ rfl, ref_inp_apply]

open Cert.ReferenceIdeal.Read in
/-- THE TWO PROGRAMS' ACTIVATIONS ARE ONE ARRAY. -/
theorem embedded_eq (co : FVec Ideal S32x8x2048 .f32) (inp : IVec S32x352 32) (topic : IVec S32x32 32)
    (table : FVec Ideal S21128x2048 .f32) :
    embedded co inp topic table = val_main_v19 (F := Ideal) co inp topic table := by
  unfold embedded
  rw [cut_topic, cut_inp]
  rfl

end Cert.KernelIdeal.Host

end
-- ==== Proof.KernelHost.lean ====
/-
  The host operations around the region, read back.

  Before the region the program builds the activations (`Host.embedded`, flattened to `12288` rows and changed of
  float format), changes the float format of the two weight matrices, and gives each bias a leading unit axis;
  the joined ids are its second result. After the region it folds the `12288` output rows back into `32×384` and
  joins the type ids and the attention masks. Each statement below is what one buffer holds, as the operations'
  composed term of the argument arrays (and, for the first result, of the region's output array).
-/
import proofs.«142035_j17394617549221_2_alg».proof.Proof.Gen.KernelIdeal.Frame
import proofs.«142035_j17394617549221_2_alg».proof.Proof.Embed
import Idealize.ShloMosaic.Lib.StableHlo.Run
import Idealize.ShloMosaic.Lib.Pipeline.Value
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-! ## What the region finds -/

/-- The joined ids, written before the region. -/
theorem V_labels (c : Dev nD) : V m c main_v0_1
    = labels (m ((c : Thread nD τ).loc main_arg2)) (m ((c : Thread nD τ).loc main_arg1)) := by
  show StableHlo.after hostOps0 (fun b => m (c, b)) (Proc.devRef .tc main_v0_1) = _
  unfold labels
  after_results
  rfl

/-- The start indices handed to the lookup: the wrapped joined ids with a trailing unit axis. -/
theorem V_starts (c : Dev nD) : V m c main_call0_v6
    = broadcastInDim S32x384x1 ![0, 1] bcast_S32x384_S32x384x1_0_1
        (select (cmpi .slt (V m c main_v0_1) (broadcastInDim S32x384 ![] bcast_S_S32x384 (constantI S_ 32 0#32)))
          (addi (V m c main_v0_1) (broadcastInDim S32x384 ![] bcast_S_S32x384 (constantI S_ 32 21128#32))) (V m c main_v0_1)) := by
  dsimp only [V, V0]
  simp only [List.flatten_cons, List.flatten_nil, List.append_nil]
  after_results_simp
  rfl

/-- The joint lookup. -/
theorem V_looked (c : Dev nD) : V m c main_call0_v7
    = Host.gather gather_S21128x2048_S32x384x1_S32x384x2048_2_0_n_n_0_2_12048 (m ((c : Thread nD τ).loc main_arg7)) (V m c main_call0_v6) := by
  dsimp only [V, V0]
  simp only [List.flatten_cons, List.flatten_nil, List.append_nil]
  after_results_simp
  rfl

/-- The activations as `32×384` tokens: the lookup cut in two, the sentence vectors added, joined again. -/
theorem V_joined (c : Dev nD) : V m c main_call0_v15
    = concatenate S32x384x2048 1
        [⟨S32x32x2048, extractStridedSlice S32x32x2048 ![0, 0, 0] (V m c main_call0_v7) slices_S32x384x2048_S32x32x2048_0_0_0⟩,
         ⟨S32x352x2048, addSentence (extractStridedSlice S32x352x2048 ![0, 32, 0] (V m c main_call0_v7)
            slices_S32x384x2048_S32x352x2048_0_32_0) (m ((c : Thread nD τ).loc main_arg0))⟩]
        concatenates_S32x32x2048_S32x352x2048_S32x384x2048_d1 := by
  dsimp only [V, V0]
  simp only [List.flatten_cons, List.flatten_nil, List.append_nil]
  unfold addSentence
  after_results_simp
  rfl

/-- The activations as `12288` rows, in the matrix unit's float format. -/
theorem V_flat (c : Dev nD) : @Eq (FVec Ideal S12288x2048 .bf16) (V m c main_call0_v17)
    (truncf .bf16 (shapeCast S12288x2048 (V m c main_call0_v15 : FVec Ideal S32x384x2048 .f32) shapeCasts_S32x384x2048_S12288x2048)
      bitsLt_bf16_f32) := by
  dsimp only [V, V0]
  simp only [List.flatten_cons, List.flatten_nil, List.append_nil]
  after_results_simp
  rfl

/-- The activations: the embedded tokens as `12288` rows. -/
theorem V_x (c : Dev nD) : @Eq (FVec Ideal S12288x2048 .bf16) (V m c main_call0_v17)
    (truncf .bf16 (shapeCast S12288x2048
        (embedded (m ((c : Thread nD τ).loc main_arg0)) (m ((c : Thread nD τ).loc main_arg1))
          (m ((c : Thread nD τ).loc main_arg2)) (m ((c : Thread nD τ).loc main_arg7)))
        shapeCasts_S32x384x2048_S12288x2048) bitsLt_bf16_f32) := by
  rw [V_flat, V_joined, V_looked, V_starts, V_labels]
  rfl

/-- The first weight matrix. -/
theorem V_w1 (c : Dev nD) : @Eq (FVec Ideal S2048x512 .bf16) (V m c main_call0_v18)
    (truncf .bf16 (m ((c : Thread nD τ).loc main_arg8) : FVec Ideal S2048x512 .f32) bitsLt_bf16_f32) := by
  show StableHlo.after hostOps0 (fun b => m (c, b)) (Proc.devRef .tc main_call0_v18) = _
  after_results
  rfl

/-- The second weight matrix. -/
theorem V_w2 (c : Dev nD) : @Eq (FVec Ideal S512x768 .bf16) (V m c main_call0_v19)
    (truncf .bf16 (m ((c : Thread nD τ).loc main_arg10) : FVec Ideal S512x768 .f32) bitsLt_bf16_f32) := by
  show StableHlo.after hostOps0 (fun b => m (c, b)) (Proc.devRef .tc main_call0_v19) = _
  after_results
  rfl

/-- The first bias as a row. -/
theorem V_b1 (c : Dev nD) : V m c main_call0_v20 = shapeCast S1x512 (m ((c : Thread nD τ).loc main_arg9)) shapeCasts_S512_S1x512 := by
  show StableHlo.after hostOps0 (fun b => m (c, b)) (Proc.devRef .tc main_call0_v20) = _
  after_results
  rfl

/-- The second bias as a row. -/
theorem V_b2 (c : Dev nD) : V m c main_call0_v21 = shapeCast S1x768 (m ((c : Thread nD τ).loc main_arg11)) shapeCasts_S768_S1x768 := by
  show StableHlo.after hostOps0 (fun b => m (c, b)) (Proc.devRef .tc main_call0_v21) = _
  after_results
  rfl

/-! ## What the program ends with -/

/-- An argument array the lines after the region read is as launched. -/
theorem kept (c : Dev nD) (b : Ref sig .tc) (hb : ∀ w, Pipeline.arrRef spec0 w ≠ b)
    (hV : V m c b = m ((c : Thread nD τ).loc b)) :
    Pipeline.withArrays (cfgs 0).spec c (V0 m c) (fun w => (dats m 0 c).arrAt w (cfgs 0).N) (Proc.devRef .tc b)
      = m ((c : Thread nD τ).loc b) :=
  (Pipeline.withArrays_of_ne _ c (V0 m c) _ b hb).trans hV

/-- The first result: the region's output array, its `12288` rows folded into `32×384`. -/
theorem tail_out (c : Dev nD) : Pipeline.afterTail₀ cfgs (dats m) 0 (V0 m) [hostOps1] c main_v0_0
    = shapeCast S32x384x768 ((dats m 0 c).arrAt 5 cfg0.N) shapeCasts_S12288x768_S32x384x768 := by
  have hw : Pipeline.withArrays (cfgs 0).spec c (V0 m c) (fun w => (dats m 0 c).arrAt w (cfgs 0).N) (Proc.devRef .tc main_call0_v22)
      = (dats m 0 c).arrAt 5 cfg0.N := Pipeline.withArrays_arr spec0 launch0.win.arr_inj c _ _ 5
  unfold Pipeline.afterTail₀
  show StableHlo.after hostOps1 _ (Proc.devRef .tc main_v0_0) = _
  after_results
  rw [← hw]
  rfl

/-- The second result: the joined ids, untouched by the region and by the lines after it. -/
theorem tail_labels (c : Dev nD) : Pipeline.afterTail₀ cfgs (dats m) 0 (V0 m) [hostOps1] c main_v0_1
    = concatenate S32x384 1 [⟨S32x32, m ((c : Thread nD τ).loc main_arg2)⟩, ⟨S32x352, m ((c : Thread nD τ).loc main_arg1)⟩]
        concatenates_S32x32_S32x352_S32x384_d1 := by
  unfold Pipeline.afterTail₀
  show StableHlo.after hostOps1 _ (Proc.devRef .tc main_v0_1) = _
  after_results
  exact (Pipeline.withArrays_of_ne _ c (V0 m c) _ main_v0_1 (by exact (by decide : ∀ w, Pipeline.arrRef spec0 w ≠ main_v0_1))).trans (V_labels m c)

/-- The third result: the joined type ids. -/
theorem tail_types (c : Dev nD) : Pipeline.afterTail₀ cfgs (dats m) 0 (V0 m) [hostOps1] c main_v0_2
    = concatenate S32x384 1 [⟨S32x32, m ((c : Thread nD τ).loc main_arg4)⟩, ⟨S32x352, m ((c : Thread nD τ).loc main_arg6)⟩]
        concatenates_S32x32_S32x352_S32x384_d1 := by
  have h4 := kept m c main_arg4 (by exact (by decide : ∀ w, Pipeline.arrRef spec0 w ≠ main_arg4)) (V_main_arg4 m c)
  have h6 := kept m c main_arg6 (by exact (by decide : ∀ w, Pipeline.arrRef spec0 w ≠ main_arg6)) (V_main_arg6 m c)
  unfold Pipeline.afterTail₀
  show StableHlo.after hostOps1 _ (Proc.devRef .tc main_v0_2) = _
  after_results
  rw [← h4, ← h6]
  rfl

/-- The fourth result: the joined attention masks. -/
theorem tail_masks (c : Dev nD) : Pipeline.afterTail₀ cfgs (dats m) 0 (V0 m) [hostOps1] c main_v0_3
    = concatenate S32x384 1 [⟨S32x32, m ((c : Thread nD τ).loc main_arg3)⟩, ⟨S32x352, m ((c : Thread nD τ).loc main_arg5)⟩]
        concatenates_S32x32_S32x352_S32x384_d1 := by
  have h3 := kept m c main_arg3 (by exact (by decide : ∀ w, Pipeline.arrRef spec0 w ≠ main_arg3)) (V_main_arg3 m c)
  have h5 := kept m c main_arg5 (by exact (by decide : ∀ w, Pipeline.arrRef spec0 w ≠ main_arg5)) (V_main_arg5 m c)
  unfold Pipeline.afterTail₀
  show StableHlo.after hostOps1 _ (Proc.devRef .tc main_v0_3) = _
  after_results
  rw [← h3, ← h5]
  rfl

end Cert.KernelIdeal.Host

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.MlpSpec.lean ====
/-
  The projector applied to one row, on the extended reals.

  For a row `x` of `D` numbers, a `D×K` matrix `w₁`, a bias `b₁` of `K` numbers, a `K×E` matrix `w₂` and a bias `b₂`
  of `E` numbers the hidden layer is `h[k] = tanh (∑ d, x[d]·w₁[d,k] + b₁[k])` and the output is
  `out[e] = ∑ k, h[k]·w₂[k,e] + b₂[e]`. Every output row depends on one input row only, so the map from a matrix
  of rows to the matrix of outputs is the same whether the rows are handed over in blocks, all at once, or with
  their row index split into a pair of coordinates.
-/
import Idealize.ShloMosaic.Lib.ValueIdx
import Idealize.ShloMosaic.PureOps.Ideal.Laws

noncomputable section

namespace Cert.Mlp

open Idealize.ShloMosaic Idealize.ShloMosaic.ValueIdx

/-- The hidden layer of one row: `tanh (∑ d, x[d]·w₁[d,k] + b₁[k])`. -/
def hidden {D K : ℕ} (x : Fin D → EReal) (w₁ : (⟨2, ![D, K]⟩ : Shape).Idx → EReal) (b₁ : Fin K → EReal) (k : Fin K) : EReal :=
  Ideal.tanh ((∑ d : Fin D, x d * w₁ (ix2 d k)) + b₁ k)

/-- The output of one row: `∑ k, h[k]·w₂[k,e] + b₂[e]`. -/
def project {D K E : ℕ} (x : Fin D → EReal) (w₁ : (⟨2, ![D, K]⟩ : Shape).Idx → EReal) (b₁ : Fin K → EReal)
    (w₂ : (⟨2, ![K, E]⟩ : Shape).Idx → EReal) (b₂ : Fin E → EReal) (e : Fin E) : EReal :=
  (∑ k : Fin K, hidden x w₁ b₁ k * w₂ (ix2 k e)) + b₂ e

/-- The output depends on the row, the matrices and the biases entry by entry. -/
theorem project_congr {D K E : ℕ} {x x' : Fin D → EReal} {w₁ w₁' : (⟨2, ![D, K]⟩ : Shape).Idx → EReal} {b₁ b₁' : Fin K → EReal}
    {w₂ w₂' : (⟨2, ![K, E]⟩ : Shape).Idx → EReal} {b₂ b₂' : Fin E → EReal} (e : Fin E)
    (hx : ∀ d, x d = x' d) (hw₁ : w₁ = w₁') (hb₁ : ∀ k, b₁ k = b₁' k) (hw₂ : w₂ = w₂') (hb₂ : ∀ e, b₂ e = b₂' e) :
    project x w₁ b₁ w₂ b₂ e = project x' w₁' b₁' w₂' b₂' e := by
  obtain rfl : x = x' := funext hx
  obtain rfl : b₁ = b₁' := funext hb₁
  obtain rfl : b₂ = b₂' := funext hb₂
  subst hw₁ hw₂
  rfl

end Cert.Mlp

end
-- ==== Proof.KernelBody.lean ====
/-
  What the kernel body stores, read at an index.

  The body loads a block of `1024` rows of the activations, the two weight matrices and the two bias rows, and
  stores `tanh (x·w₁ + b₁)·w₂ + b₂`: two matrix products into zero accumulators, each followed by the bias row
  spread over the rows, the hidden layer passed through `tanh` and a change of float format (the identity on the
  extended reals). Entry `(p, q)` of the stored block is the projector applied to row `p` of the loaded block,
  read at `q`.
-/
import proofs.«142035_j17394617549221_2_alg».proof.Proof.Gen.KernelIdeal.Skeleton
import proofs.«142035_j17394617549221_2_alg».proof.Proof.LibPlainDot
import proofs.«142035_j17394617549221_2_alg».proof.Proof.MlpSpec
import Idealize.ShloMosaic.Lib.Pipeline.Value
import Idealize.ShloMosaic.Lib.ValueIdx
import Idealize.ShloMosaic.Lib.ValueLayout

noncomputable section

namespace Cert.KernelIdeal.Body

open Cert.KernelIdeal Cert.KernelIdeal.Gen Idealize.ShloMosaic Idealize.ShloMosaic.ValueIdx Cert.Lib.PlainDot Cert.Mlp

/-- The first product with its bias row, at `(p, k)`: `∑ d, x[p,d]·w₁[d,k] + b₁[0,k]`. -/
theorem pre_apply (x0 : FVec Ideal S1024x2048 .bf16) (x1 : FVec Ideal S2048x512 .bf16) (x2 : FVec Ideal S1x512 .f32)
    (p : Fin 1024) (k : Fin 512) :
    addf (matmul dot_S1024x2048_S2048x512_S1024x512_1_0_0_1_n_n none x0 x1 (constant (F := Ideal) S1024x512 .f32 0x00000000#32))
        (broadcastTo S1024x512 x2 broadcasts_S1x512_S1024x512) (ix2 p k)
      = (∑ d : Fin 2048, x0 (ix2 p d) * x1 (ix2 d k)) + x2 (ix2 (0 : Fin 1) k) := by
  rw [addf_apply, broadcastTo_1b_ab_apply]
  exact congrArg₂ (· + ·)
    (congrFun (matmul_zero_eq dot_S1024x2048_S2048x512_S1024x512_1_0_0_1_n_n rfl none x0 x1) (ix2 p k)) rfl

/-- THE STORED BLOCK at `(p, q)`: the projector applied to row `p` of the loaded activations. -/
theorem pay_apply (x0 : Vec Ideal S1024x2048 .bf16) (x1 : Vec Ideal S2048x512 .bf16) (x2 : Vec Ideal S1x512 .f32)
    (x3 : Vec Ideal S512x768 .bf16) (x4 : Vec Ideal S1x768 .f32) (p : Fin 1024) (q : Fin 768) :
    k0_pay1 (F := Ideal) x0 x1 x2 x3 x4 (ix2 p q)
      = project (fun d => x0 (ix2 p d)) x1 (fun k => x2 (ix2 (0 : Fin 1) k)) x3 (fun e => x4 (ix2 (0 : Fin 1) e)) q := by
  unfold k0_pay1
  simp only [shapeCast_self]
  rw [addf_apply, broadcastTo_1b_ab_apply]
  refine (congrArg₂ (· + ·)
    (congrFun (matmul_zero_eq dot_S1024x512_S512x768_S1024x768_1_0_0_1_n_n rfl none _ _) (ix2 p q)) rfl).trans ?_
  rw [rowsByCols_apply]
  unfold project Cert.Mlp.hidden
  refine congrArg₂ (· + ·) (Finset.sum_congr rfl fun k _ => congrArg₂ (· * ·) ?_ rfl) rfl
  exact congrArg Ideal.tanh (pre_apply x0 x1 x2 p k)

end Cert.KernelIdeal.Body

end
-- ==== Proof.KernelValue.lean ====
/-
  The kernel's output array after the run, as one function of the arrays the region finds.

  The grid has twelve points; point `t` stages rows `1024·t … 1024·t + 1023` of the activations, the two weight
  matrices and the two bias rows whole, and writes back rows `1024·t … 1024·t + 1023` of the output. Row `r` of the
  output is the projector applied to row `r` of the activations, so every written block is a block of one
  whole-array function (`rows`), and the twelve blocks tile the `12288` rows: row `r` lies in the block of point
  `r / 1024`.
-/
import proofs.«142035_j17394617549221_2_alg».proof.Proof.Gen.KernelIdeal.Frame
import proofs.«142035_j17394617549221_2_alg».proof.Proof.KernelBody
import proofs.«142035_j17394617549221_2_alg».proof.Proof.MlpSpec
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.ShloMosaic.ValueIdx
open Idealize.SL.Sem Cert.Mlp
open Idealize.ShloMosaic.Pipeline (Dat)

variable (m : (ℓ : Loc nD τ sig) → Buf (Elt Ideal) ℓ)

/-- The projector applied to every row of a `12288×2048` array, the biases given as rows `[1, 512]` and `[1, 768]`. -/
def rows (x : Vec Ideal S12288x2048 .bf16) (w₁ : Vec Ideal S2048x512 .bf16) (b₁ : Vec Ideal S1x512 .f32)
    (w₂ : Vec Ideal S512x768 .bf16) (b₂ : Vec Ideal S1x768 .f32) : Vec Ideal S12288x768 .f32 :=
  fun i => project (fun d => x (ix2 (i 0) d)) w₁ (fun k => b₁ (ix2 (0 : Fin 1) k)) w₂ (fun e => b₂ (ix2 (0 : Fin 1) e)) (i 1)

theorem origin : (![0, 0] : Fin 2 → Nat) = fun _ => 0 := funext fun a => by fin_cases a <;> rfl

/-- The printed index maps over the grid: the activations' and the output's block row is the point, every other block
    index is `0`. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A stored block whose loaded activations are rows of `X` starting where the output index `i` says, and whose other
    loads are the whole matrices and bias rows, is `rows` at `i`. -/
theorem block_apply (X : Vec Ideal S12288x2048 .bf16) (W₁ : Vec Ideal S2048x512 .bf16) (B₁ : Vec Ideal S1x512 .f32)
    (W₂ : Vec Ideal S512x768 .bf16) (B₂ : Vec Ideal S1x768 .f32)
    (x0 : Vec Ideal S1024x2048 .bf16) (x1 : Vec Ideal S2048x512 .bf16) (x2 : Vec Ideal S1x512 .f32)
    (x3 : Vec Ideal S512x768 .bf16) (x4 : Vec Ideal S1x768 .f32) (j : S1024x768.Idx) (i : S12288x768.Idx)
    (h0 : ∀ d : Fin 2048, x0 (ix2 (j 0) d) = X (ix2 (i 0) d)) (h1 : x1 = W₁) (h2 : x2 = B₁) (h3 : x3 = W₂) (h4 : x4 = B₂)
    (hq : j 1 = i 1) :
    k0_pay1 (F := Ideal) x0 x1 x2 x3 x4 j = rows X W₁ B₁ W₂ B₂ i := by
  obtain ⟨p, q, rfl⟩ : ∃ (p : Fin 1024) (q : Fin 768), j = ix2 p q := ⟨j 0, j 1, eq_ix2 j⟩
  have hq' : q = i 1 := hq
  rw [Body.pay_apply]
  unfold rows
  rw [← hq']
  subst h2 h4
  exact project_congr _ h0 h1 (fun _ => rfl) h3 (fun _ => rfl)

/-- WHAT POINT `t` WRITES BACK is block `t` of `rows` of the arrays the region finds. -/
theorem flushed_eq (c : Dev nD) (t : Fin cfg0.N) :
    (dats m 0 c).flushed 5 t = ((cfg0.win 5).blk t).view.read (Elt Ideal)
      (rows (V m c main_call0_v17) (V m c main_call0_v18) (V m c main_call0_v20) (V m c main_call0_v19) (V m c main_call0_v21)) := by
  show (cfg0.win 5).cut (grid0.coords t) ((dats m 0 c).after 5 t) = _
  rw [after0_5]
  unfold out0_5
  rw [View.canon_unit_zero origin]
  simp only [View.ld_unit_zero (S := S1024x2048) origin, View.ld_unit_zero (S := S2048x512) origin,
    View.ld_unit_zero (S := S1x512) origin, View.ld_unit_zero (S := S512x768) origin, View.ld_unit_zero (S := S1x768) origin]
  obtain ⟨e00, e01, e10, e11, e20, e21, e30, e31, e40, e41, e50, e51⟩ := index_maps t
  funext j
  refine block_apply (V m c main_call0_v17) (V m c main_call0_v18) (V m c main_call0_v20) (V m c main_call0_v19)
    (V m c main_call0_v21) (iblk m c 0 t) (iblk m c 1 t) (iblk m c 2 t) (iblk m c 3 t) (iblk m c 4 t) j
    (((cfg0.win 5).blk t).view.emb j) ?_ ?_ ?_ ?_ ?_ ?_
  · intro d
    show V m c main_call0_v17 (((cfg0.win 0).blk t).view.emb (ix2 (j 0) d)) = _
    refine congrArg _ (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 2048 + 1 * d.val = d.val; omega
  · funext y
    show V m c main_call0_v18 (((cfg0.win 1).blk t).view.emb y) = V m c main_call0_v18 y
    refine congrArg _ (funext fun a => Fin.ext ?_)
    match a with
    | ⟨0, _⟩ => show win0_1.index t (0 : Fin 2) * 2048 + 1 * (y 0).val = (y 0).val; omega
    | ⟨1, _⟩ => show win0_1.index t (1 : Fin 2) * 512 + 1 * (y 1).val = (y 1).val; omega
  · funext y
    show V m c main_call0_v20 (((cfg0.win 2).blk t).view.emb y) = V m c main_call0_v20 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  · funext y
    show V m c main_call0_v19 (((cfg0.win 3).blk t).view.emb y) = V m c main_call0_v19 y
    refine congrArg _ (funext fun a => Fin.ext ?_)
    match a with
    | ⟨0, _⟩ => show win0_3.index t (0 : Fin 2) * 512 + 1 * (y 0).val = (y 0).val; omega
    | ⟨1, _⟩ => show win0_3.index t (1 : Fin 2) * 768 + 1 * (y 1).val = (y 1).val; omega
  · funext y
    show V m c main_call0_v21 (((cfg0.win 4).blk t).view.emb y) = V m c main_call0_v21 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 768 + 1 * (y 1).val = (y 1).val; omega
  · refine Fin.ext ?_
    show (j 1).val = win0_5.index t (1 : Fin 2) * 768 + 1 * (j 1).val
    omega

/-- An index of the output array is in point `t`'s block iff each coordinate is in the block's range on its axis. -/
theorem mem_blk (t : Fin cfg0.N) (i : S12288x768.Idx) :
    i ∈ ((cfg0.win 5).blk t).view.set ↔ ∀ a : Fin 2, win0_5.index t a * S1024x768.size a ≤ (i a).val
      ∧ (i a).val < win0_5.index t a * S1024x768.size a + S1024x768.size a := by
  show i ∈ ((View.whole main_call0_v22).slice (win0_5.rect t)).set ↔ _
  rw [View.set_slice_whole, Rect.mem_set_unit]
  exact Iff.rfl

/-- Every index of the output array lies in the block of the point `row / 1024`. -/
theorem cover (i : S12288x768.Idx) :
    ∃ t : Fin cfg0.N, (cfg0.win 5).flush t = true ∧ i ∈ ((cfg0.win 5).blk t).view.set := by
  have hi0 : (i 0).val < 12288 := (i 0).isLt
  have hi1 : (i 1).val < 768 := (i 1).isLt
  have hN : (i 0).val / 1024 < grid0.N := by rw [N_0]; omega
  obtain ⟨-, -, -, -, -, -, -, -, -, -, e50, e51⟩ := index_maps ⟨(i 0).val / 1024, hN⟩
  refine ⟨⟨(i 0).val / 1024, hN⟩, flush0_5 _, ?_⟩
  rw [mem_blk]
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    rw [e50]
    show (i 0).val / 1024 * 1024 ≤ (i 0).val ∧ (i 0).val < (i 0).val / 1024 * 1024 + 1024
    omega
  | ⟨1, _⟩ =>
    show win0_5.index ⟨(i 0).val / 1024, hN⟩ (1 : Fin 2) * 768 ≤ (i 1).val
      ∧ (i 1).val < win0_5.index ⟨(i 0).val / 1024, hN⟩ (1 : Fin 2) * 768 + 768
    omega

/-- THE OUTPUT ARRAY after the run: the projector applied to every row of the activations the region finds. -/
theorem final (c : Dev nD) : (dats m 0 c).arrAt 5 cfg0.N
    = rows (V m c main_call0_v17) (V m c main_call0_v18) (V m c main_call0_v20) (V m c main_call0_v19) (V m c main_call0_v21) :=
  (dats m 0 c).arrAt_eq_of_cover 5 _ (fun t _ => flushed_eq m c t) (fun i => cover i)

end Cert.KernelIdeal.BlockValue

end
-- ==== Proof.RefValue.lean ====
/-
  The reference's float result, read at an index.

  The reference joins the embedded tokens into one `[32, 384, 2048]` array `X`, contracts its last axis with
  `W₁`, adds `b₁` spread over the first two axes, applies `tanh`, contracts with `W₂` and adds `b₂`. At
  `(b, t, e)` that is the projector applied to the row `X[b, t, ·]`, read at `e`.
-/
import proofs.«142035_j17394617549221_2_alg».proof.Proof.Gen.ReferenceIdeal.Read
import proofs.«142035_j17394617549221_2_alg».proof.Proof.MlpSpec

noncomputable section

namespace Cert.ReferenceIdeal.RefValue

open Cert.ReferenceIdeal Cert.ReferenceIdeal.Read Idealize.ShloMosaic Idealize.ShloMosaic.ValueIdx Cert.Mlp

/-- The first contraction reads `X` at `(b, t, d)` … -/
theorem lidx20 (b : Fin 32) (t : Fin 384) (k : Fin 512) (d : Fin 2048) :
    lidx_main_v20 (ix3 b t k) d = ix3 b t d :=
  funext fun a => Fin.ext (by match a with | ⟨0, _⟩ => rfl | ⟨1, _⟩ => rfl | ⟨2, _⟩ => rfl)
/-- … and `W₁` at `(d, k)`. -/
theorem ridx20 (b : Fin 32) (t : Fin 384) (k : Fin 512) (d : Fin 2048) :
    ridx_main_v20 (ix3 b t k) d = ix2 d k :=
  funext fun a => Fin.ext (by match a with | ⟨0, _⟩ => rfl | ⟨1, _⟩ => rfl)
/-- The second contraction reads the hidden layer at `(b, t, k)` … -/
theorem lidx25 (b : Fin 32) (t : Fin 384) (e : Fin 768) (k : Fin 512) :
    lidx_main_v25 (ix3 b t e) k = ix3 b t k :=
  funext fun a => Fin.ext (by match a with | ⟨0, _⟩ => rfl | ⟨1, _⟩ => rfl | ⟨2, _⟩ => rfl)
/-- … and `W₂` at `(k, e)`. -/
theorem ridx25 (b : Fin 32) (t : Fin 384) (e : Fin 768) (k : Fin 512) :
    ridx_main_v25 (ix3 b t e) k = ix2 k e :=
  funext fun a => Fin.ext (by match a with | ⟨0, _⟩ => rfl | ⟨1, _⟩ => rfl)
/-- The first bias spread over the rows reads `b₁[k]` … -/
theorem bias1 (b : Fin 32) (t : Fin 384) (k : Fin 512) : idx_main_v21 (idx_main_v22 (ix3 b t k)) = ix1 k :=
  funext fun a => Fin.ext (by match a with | ⟨0, _⟩ => rfl)
/-- … and the second `b₂[e]`. -/
theorem bias2 (b : Fin 32) (t : Fin 384) (e : Fin 768) : idx_main_v26 (idx_main_v27 (ix3 b t e)) = ix1 e :=
  funext fun a => Fin.ext (by match a with | ⟨0, _⟩ => rfl)

/-- The hidden layer at `(b, t, k)`. -/
theorem hidden_at (x0 : (⟨S32x8x2048, .f32⟩ : BufTy).Contents (Elt Ideal)) (x1 : (⟨S32x352, .i32⟩ : BufTy).Contents (Elt Ideal))
    (x2 : (⟨S32x32, .i32⟩ : BufTy).Contents (Elt Ideal)) (x7 : (⟨S21128x2048, .f32⟩ : BufTy).Contents (Elt Ideal))
    (x8 : (⟨S2048x512, .f32⟩ : BufTy).Contents (Elt Ideal)) (x9 : (⟨S512, .f32⟩ : BufTy).Contents (Elt Ideal))
    (b : Fin 32) (t : Fin 384) (k : Fin 512) :
    val_main_v24 (F := Ideal) x0 x1 x2 x7 x8 x9 (ix3 b t k)
      = hidden (fun d => val_main_v19 (F := Ideal) x0 x1 x2 x7 (ix3 b t d)) x8 (fun k => x9 (ix1 k)) k := by
  rw [val_main_v24_apply, val_main_v23_apply, val_main_v20_apply, val_main_v22_apply, val_main_v21_apply, bias1]
  simp only [lidx20, ridx20]
  rfl

/-- THE REFERENCE'S RESULT at `(b, t, e)`: the projector applied to the row `X[b, t, ·]`. -/
theorem result_at (x0 : (⟨S32x8x2048, .f32⟩ : BufTy).Contents (Elt Ideal)) (x1 : (⟨S32x352, .i32⟩ : BufTy).Contents (Elt Ideal))
    (x2 : (⟨S32x32, .i32⟩ : BufTy).Contents (Elt Ideal)) (x7 : (⟨S21128x2048, .f32⟩ : BufTy).Contents (Elt Ideal))
    (x8 : (⟨S2048x512, .f32⟩ : BufTy).Contents (Elt Ideal)) (x9 : (⟨S512, .f32⟩ : BufTy).Contents (Elt Ideal))
    (x10 : (⟨S512x768, .f32⟩ : BufTy).Contents (Elt Ideal)) (x11 : (⟨S768, .f32⟩ : BufTy).Contents (Elt Ideal))
    (b : Fin 32) (t : Fin 384) (e : Fin 768) :
    val_main_v28 (F := Ideal) x0 x1 x2 x7 x8 x9 x10 x11 (ix3 b t e)
      = project (fun d => val_main_v19 (F := Ideal) x0 x1 x2 x7 (ix3 b t d)) x8 (fun k => x9 (ix1 k)) x10
          (fun q => x11 (ix1 q)) e := by
  rw [val_main_v28_apply, val_main_v25_apply, val_main_v27_apply, val_main_v26_apply, bias2]
  simp only [lidx25, ridx25, hidden_at]
  rfl

end Cert.ReferenceIdeal.RefValue

end
-- ==== Proof.KernelResult.lean ====
/-
  The kernel's program, run at the exact instance, ends with the reference's results.

  The region's output array is the projector applied to each of the `12288` rows of the flattened activations
  (`BlockValue.final`); row `384·b + t` of the flattened activations is row `(b, t)` of the embedded tokens, and the
  program folds output row `384·b + t` back to `(b, t)`. So entry `(b, t, e)` of the first result is the projector
  applied to the embedded token `(b, t)`, read at `e` — what the reference computes with its two contractions over
  the last axis (`RefValue.result_at`), the activations being one array (`Host.embedded_eq`). The change of float
  format of the activations and of the weights is the identity on the extended reals, and a bias `[n]` recast as a row
  `[1, n]` reads the same entries.
-/
import proofs.«142035_j17394617549221_2_alg».proof.Proof.KernelHost
import proofs.«142035_j17394617549221_2_alg».proof.Proof.KernelValue
import proofs.«142035_j17394617549221_2_alg».proof.Proof.RefValue
import proofs.«142035_j17394617549221_2_alg».proof.Proof.Embed
import Idealize.ShloMosaic.Lib.ValueLayout

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem Cert.Mlp

/-- The projector over the flattened activations, its rows folded back into `32×384`, is the reference's float result. -/
theorem fold_eq (co : FVec Ideal S32x8x2048 .f32) (inp : IVec S32x352 32) (topic : IVec S32x32 32)
    (table : FVec Ideal S21128x2048 .f32) (w₁ : FVec Ideal S2048x512 .f32) (b₁ : FVec Ideal S512 .f32)
    (w₂ : FVec Ideal S512x768 .f32) (b₂ : FVec Ideal S768 .f32) :
    shapeCast S32x384x768
        (BlockValue.rows
          (truncf .bf16 (shapeCast S12288x2048 (Host.embedded co inp topic table) shapeCasts_S32x384x2048_S12288x2048) bitsLt_bf16_f32)
          (truncf .bf16 w₁ bitsLt_bf16_f32) (shapeCast S1x512 b₁ shapeCasts_S512_S1x512)
          (truncf .bf16 w₂ bitsLt_bf16_f32) (shapeCast S1x768 b₂ shapeCasts_S768_S1x768))
        shapeCasts_S12288x768_S32x384x768
      = Cert.ReferenceIdeal.Read.val_main_v28 (F := Ideal) co inp topic table w₁ b₁ w₂ b₂ := by
  funext i
  obtain ⟨b, t, e, rfl⟩ : ∃ (b : Fin 32) (t : Fin 384) (e : Fin 768), i = ix3 b t e := ⟨i 0, i 1, i 2, eq_ix3 i⟩
  have hr : b.val * 384 + t.val < 12288 := by have := b.isLt; have := t.isLt; omega
  rw [Cert.ReferenceIdeal.RefValue.result_at,
    shapeCast_apply _ shapeCasts_S12288x768_S32x384x768 (ix3 b t e) (ix2 ⟨b.val * 384 + t.val, hr⟩ e) (by
      rw [Shape.rowMajor_val_two, Shape.rowMajor_val_three]; rfl)]
  unfold BlockValue.rows
  refine project_congr e (fun d => ?_) rfl (fun k => ?_) rfl (fun q => ?_)
  · show shapeCast S12288x2048 (Host.embedded co inp topic table) shapeCasts_S32x384x2048_S12288x2048
      (ix2 ⟨b.val * 384 + t.val, hr⟩ d) = _
    rw [shapeCast_apply _ shapeCasts_S32x384x2048_S12288x2048 (ix2 ⟨b.val * 384 + t.val, hr⟩ d) (ix3 b t d) (by
      rw [Shape.rowMajor_val_two, Shape.rowMajor_val_three]; rfl), Host.embedded_eq]
  · exact shapeCast_a_1a_apply b₁ shapeCasts_S512_S1x512 0 k
  · exact shapeCast_a_1a_apply b₂ shapeCasts_S768_S1x768 0 q

variable (m : (ℓ : Loc nD τ sig) → Buf (Elt Ideal) ℓ)

/-- The first result after the lines that follow the region. -/
theorem out_eq (c : Dev nD) : Pipeline.afterTail₀ cfgs (dats m) 0 (V0 m) [hostOps1] c main_v0_0
    = Cert.ReferenceIdeal.Read.val_main_v28 (F := Ideal) (m ((c : Thread nD τ).loc main_arg0)) (m ((c : Thread nD τ).loc main_arg1))
        (m ((c : Thread nD τ).loc main_arg2)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [Host.tail_out, BlockValue.final, Host.V_x, Host.V_w1, Host.V_b1, Host.V_w2, Host.V_b2]
  exact fold_eq _ _ _ _ _ _ _ _

/-- THE KERNEL'S PROGRAM RUN: every weakly fair execution terminates, the four results at the reference's terms of the
    argument arrays, the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v0_0)
        = Cert.ReferenceIdeal.Read.val_main_v28 (F := Ideal) (m ((c : Thread nD τ).loc main_arg0)) (m ((c : Thread nD τ).loc main_arg1))
            (m ((c : Thread nD τ).loc main_arg2)) (m ((c : Thread nD τ).loc main_arg7)) (m ((c : Thread nD τ).loc main_arg8))
            (m ((c : Thread nD τ).loc main_arg9)) (m ((c : Thread nD τ).loc main_arg10)) (m ((c : Thread nD τ).loc main_arg11))
      ∧ r.2.mem ((c.tc : Thread nD τ).loc main_v0_1)
        = concatenate S32x384 1 [⟨S32x32, m ((c : Thread nD τ).loc main_arg2)⟩, ⟨S32x352, m ((c : Thread nD τ).loc main_arg1)⟩]
            concatenates_S32x32_S32x352_S32x384_d1
      ∧ r.2.mem ((c.tc : Thread nD τ).loc main_v0_2)
        = concatenate S32x384 1 [⟨S32x32, m ((c : Thread nD τ).loc main_arg4)⟩, ⟨S32x352, m ((c : Thread nD τ).loc main_arg6)⟩]
            concatenates_S32x32_S32x352_S32x384_d1
      ∧ r.2.mem ((c.tc : Thread nD τ).loc main_v0_3)
        = concatenate S32x384 1 [⟨S32x32, m ((c : Thread nD τ).loc main_arg3)⟩, ⟨S32x352, m ((c : Thread nD τ).loc main_arg5)⟩]
            concatenates_S32x32_S32x352_S32x384_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      (((h c).2 main_v0_0 (Pipeline.mem_restRefs_of main_v0_0 (by decide) (by decide))).trans (out_eq m c)),
      (((h c).2 main_v0_1 (Pipeline.mem_restRefs_of main_v0_1 (by decide) (by decide))).trans (Host.tail_labels m c)),
      (((h c).2 main_v0_2 (Pipeline.mem_restRefs_of main_v0_2 (by decide) (by decide))).trans (Host.tail_types m c)),
      (((h c).2 main_v0_3 (Pipeline.mem_restRefs_of main_v0_3 (by decide) (by decide))).trans (Host.tail_masks m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c))⟩) (run_main m ρ)

end Cert.KernelIdeal.Result

end
-- ==== Proof.lean ====
/-
  The kernel against its reference, on the extended reals.

  Both programs embed `32×384` token ids in a table of `21128` rows of `2048` numbers (the first `32` ids of a batch
  row are topic ids, the other `352` input ids, and input token `44·s + u` has the sentence vector `s` added), and
  pass every embedded token `x` through a two-layer projector: `h = tanh (x·W₁ + b₁)`, `out = h·W₂ + b₂`. They also
  return the joined ids, the joined type ids and the joined attention masks.

  The kernel's program looks the joined ids up once and cuts the result; the reference looks the two id arrays up
  separately: one array either way, since a lookup reads at each token the row that token's id selects (Embed). The
  kernel flattens the tokens to `12288` rows and computes the projector twelve blocks of `1024` rows at a time, each
  block with two matrix products into zero accumulators and the bias rows spread over the block (KernelBody); the
  twelve blocks tile the output (KernelValue), which the program folds back to `32×384` rows (KernelHost). The
  reference contracts the last axis of the `32×384×2048` array directly (RefValue). Entry `(b, t, e)` is on both sides
  `∑ k, tanh (∑ d, x[b,t,d]·W₁[d,k] + b₁[k])·W₂[k,e] + b₂[e]` — the same sums of the same products in the same
  order, so no finiteness of the inputs is used; the changes of float format in the kernel are the identity on
  the extended reals (KernelResult).
-/
import proofs.«142035_j17394617549221_2_alg».proof.Defs
import proofs.«142035_j17394617549221_2_alg».proof.Proof.Gen.Kernel
import proofs.«142035_j17394617549221_2_alg».proof.Proof.Gen.Kernel.Skeleton
import proofs.«142035_j17394617549221_2_alg».proof.Proof.Gen.Kernel.Launch
import proofs.«142035_j17394617549221_2_alg».proof.Proof.Gen.Kernel.Points
import proofs.«142035_j17394617549221_2_alg».proof.Proof.Gen.Kernel.Frame
import proofs.«142035_j17394617549221_2_alg».proof.Proof.Gen.KernelIdeal
import proofs.«142035_j17394617549221_2_alg».proof.Proof.Gen.KernelIdeal.Skeleton
import proofs.«142035_j17394617549221_2_alg».proof.Proof.Gen.KernelIdeal.Launch
import proofs.«142035_j17394617549221_2_alg».proof.Proof.Gen.KernelIdeal.Points
import proofs.«142035_j17394617549221_2_alg».proof.Proof.Gen.KernelIdeal.Frame
import proofs.«142035_j17394617549221_2_alg».proof.Proof.Gen.ReferenceIdeal
import proofs.«142035_j17394617549221_2_alg».proof.Proof.Gen.ReferenceIdeal.Run
import proofs.«142035_j17394617549221_2_alg».proof.Proof.Gen.ReferenceIdeal.Read
import proofs.«142035_j17394617549221_2_alg».proof.Proof.Gen.Pre_finite_inputs
import proofs.«142035_j17394617549221_2_alg».proof.Proof.KernelResult
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run, the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

/-- From memories agreeing on the arguments both programs end with the same four results: the kernel's run has
    them at the reference's terms of its own arguments, and the reference's run at the same terms of arguments that
    are equal. -/
theorem algebraic : Cert.algebraic_KernelIdeal_ReferenceIdeal := by
  intro m ρ m' ρ' _ hagree
  refine ⟨_, _, _, _, Cert.KernelIdeal.Result.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  obtain ⟨r0, r1, r2, r3, rest⟩ := h c
  refine ⟨r0.trans ?_, r1.trans ?_, r2.trans ?_, r3.trans ?_, rest⟩
  · rw [a0, a1, a2, a7, a8, a9, a10, a11]; rfl
  · rw [a1, a2]
  · rw [a4, a6]
  · rw [a3, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
